-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x2048 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S2048 : Shape := ⟨1, ![2048]⟩
abbrev S2048x1 : Shape := ⟨2, ![2048, 1]⟩
abbrev S512x2048 : Shape := ⟨2, ![512, 2048]⟩
abbrev S512x1 : Shape := ⟨2, ![512, 1]⟩
abbrev S512 : Shape := ⟨1, ![512]⟩
abbrev S1x2048 : Shape := ⟨2, ![1, 2048]⟩
abbrev S16384x2048 : Shape := ⟨2, ![16384, 2048]⟩

abbrev nBuf : Space → Nat
  | .hbm => 10
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S2048x1, .f32⟩
  | .hbm, ⟨5, _⟩ => ⟨S1x2048, .f32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x1, .f32⟩
  | .local _ .vmem, ⟨5, _⟩ => ⟨S512x1, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S512x1_S512x1_0_0 : ∀ a, (![0, 0] : Fin 2 → Nat) a + S512x1.size a ≤ S512x1.size a
  h_S512x1 : 0 < S512x1.numel
  transposes_S2048x1_S1x2048_1_0 : S2048x1.Transposes [1, 0] S1x2048
  shapeCasts_S4x4096x2048_S16384x2048 : S4x4096x2048.ShapeCasts S16384x2048
  shapeCasts_S2048_S1x2048 : S2048.ShapeCasts S1x2048
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .f32 = 32 ∨ (Rect.block (s := S2048x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S16384x2048.size a
  hwx1_4 : ∀ i : grid1.Coords, EltTy.bits .f32 = 32 ∨ (Rect.block (s := S16384x2048) S512x2048.size (cc1_transform_4 i) (hinb1_4 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .i1⟩
  | .hbm, ⟨16, _⟩ => ⟨S_, .f32⟩
  | .hbm, ⟨17, _⟩ => ⟨S2048x2048, .f32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_cst_5 : Ref sig .tc := ⟨.hbm, 24, rfl⟩
abbrev main_call2_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Spec.lean ====
/-
  A linear layer whose weight matrix is replaced, row by row, by ternary digits and one scale.

  For a row r of the weight matrix the scale is s = max(eps, max over k of |r k|) and the k-th digit is +1, -1 or 0
  according as r k / s is above one half, below minus one half, or neither. One program multiplies the input row with
  the digits and applies the scale to the finished sum; the other multiplies every digit by the scale first and sums
  afterwards. Over the extended reals

      (sum over k of x k * t k) * s = sum over k of x k * (t k * s)

  holds as soon as 0 <= s < +inf, whatever x and t are: multiplication by such an s distributes over every sum of
  extended reals. The scale is never negative (it is at least eps), and it is below +inf exactly when no entry of the
  row is infinite, which is where finiteness of the weights is used. Nothing is asked of the input or of the digits.
-/
import Idealize.ShloMosaic.PureOps.Ideal.Laws
import Idealize.ShloMosaic.Lib.ValueIdx

noncomputable section

namespace Cert.TernaryLinear

open Idealize.ShloMosaic Idealize.ShloMosaic.ValueIdx

/-- The value every maximum starts from. -/
abbrev negInf : EReal := Ideal.ofBits .f32 0xFF800000#32
/-- The floor under the scale. -/
abbrev eps : EReal := Ideal.ofBits .f32 0x358637BD#32

theorem negInf_eq_bot : negInf = ⊥ := by simp [negInf, Ideal.ofBits, Ideal.ieee]

/-- The floor is a positive real number. -/
theorem eps_real : ∃ e : ℝ, 0 < e ∧ eps = (e : EReal) := by
  refine ⟨(2 ^ 23 + 407485 : ℕ) * (2 : ℝ) ^ ((107 : ℤ) - 127 - 23), by positivity, ?_⟩
  simp [eps, Ideal.ofBits, Ideal.ieee]

theorem eps_nonneg : 0 ≤ eps := by
  obtain ⟨e, he, h⟩ := eps_real; rw [h]; exact_mod_cast he.le

theorem eps_ne_top : eps ≠ ⊤ := by
  obtain ⟨e, -, h⟩ := eps_real; rw [h]; exact EReal.coe_ne_top e

/-- The largest absolute value of a row, as a maximum folded over the row's entries. -/
def rowAbsMax (r : Fin 2048 → EReal) : EReal :=
  (Finset.univ : Finset (Fin 2048)).fold max negInf (fun k => max (r k) (-(r k)))

/-- The scale of a row. -/
def rowScale (r : Fin 2048 → EReal) : EReal := max eps (rowAbsMax r)

/-- The ternary digit of an entry x of a row whose scale is s. -/
def tern (s x : EReal) : EReal :=
  Scalar.select (Ideal.cmp .ogt (Ideal.div x s) (Ideal.ofBits .f32 0x3F000000#32)) (Ideal.ofBits .f32 0x3F800000#32)
    (Scalar.select (Ideal.cmp .olt (Ideal.div x s) (Ideal.ofBits .f32 0xBF000000#32)) (Ideal.ofBits .f32 0xBF800000#32)
      (Ideal.ofBits .f32 0x00000000#32))

theorem rowScale_nonneg (r : Fin 2048 → EReal) : 0 ≤ rowScale r := le_max_of_le_left eps_nonneg

/-- A row without infinite entries has a scale below +inf. -/
theorem rowScale_ne_top (r : Fin 2048 → EReal) (hr : ∀ k, r k ≠ ⊤ ∧ r k ≠ ⊥) : rowScale r ≠ ⊤ := by
  refine ne_of_lt (max_lt (lt_top_iff_ne_top.mpr eps_ne_top) ?_)
  unfold rowAbsMax
  rw [Finset.fold_max_lt]
  refine ⟨by rw [negInf_eq_bot]; exact bot_lt_top, fun k _ => max_lt (lt_top_iff_ne_top.mpr (hr k).1) ?_⟩
  rw [lt_top_iff_ne_top]
  intro h
  exact (hr k).2 (by rw [← neg_neg (r k), h]; rfl)

/-- Multiplication by a factor in [0, +inf) goes inside any finite sum of extended reals. -/
theorem sum_mul_of_nonneg_of_ne_top {ι : Type} (S : Finset ι) (a : ι → EReal) {s : EReal} (h0 : 0 ≤ s) (ht : s ≠ ⊤) :
    (∑ k ∈ S, a k) * s = ∑ k ∈ S, a k * s := by
  induction S using Finset.cons_induction with
  | empty => simp
  | cons i S hi ih => rw [Finset.sum_cons, Finset.sum_cons, EReal.right_distrib_of_nonneg_of_ne_top h0 ht, ih]

/-- The law between the two programs: scaling the finished sum of products is scaling every digit first. -/
theorem scaled_sum (x t : Fin 2048 → EReal) {s : EReal} (h0 : 0 ≤ s) (ht : s ≠ ⊤) :
    (∑ k : Fin 2048, x k * t k) * s = ∑ k : Fin 2048, x k * (t k * s) := by
  rw [sum_mul_of_nonneg_of_ne_top _ _ h0 ht]
  exact Finset.sum_congr rfl fun k _ => mul_assoc _ _ _

/-! ## The result, entry by entry -/

/-- The scale of output channel o: that of row o of the weight matrix. -/
def scaleAt (w : (⟨2, ![2048, 2048]⟩ : Shape).Idx → EReal) (o : Fin 2048) : EReal := rowScale fun k => w (ix2 o k)

/-- The digit at (o, k). -/
def ternAt (w : (⟨2, ![2048, 2048]⟩ : Shape).Idx → EReal) (o k : Fin 2048) : EReal := tern (scaleAt w o) (w (ix2 o k))

/-- The digit array of a weight matrix: entry (o, k) holds the digit at (o, k). -/
def digits (w : (⟨2, ![2048, 2048]⟩ : Shape).Idx → EReal) : (⟨2, ![2048, 2048]⟩ : Shape).Idx → EReal :=
  fun i => ternAt w ⟨(i 0).val, (i 0).isLt⟩ ⟨(i 1).val, (i 1).isLt⟩

/-- The scale column of a weight matrix: entry (o, 0) holds the scale of row o. -/
def scales (w : (⟨2, ![2048, 2048]⟩ : Shape).Idx → EReal) : (⟨2, ![2048, 1]⟩ : Shape).Idx → EReal :=
  fun i => scaleAt w ⟨(i 0).val, (i 0).isLt⟩

/-- A product of input rows with the rows of a matrix Q, scaled per output column by the row S and shifted by the
    row B: entry (r, o). -/
def rowsOutAt (X : (⟨2, ![16384, 2048]⟩ : Shape).Idx → EReal) (Q : (⟨2, ![2048, 2048]⟩ : Shape).Idx → EReal)
    (S B : (⟨2, ![1, 2048]⟩ : Shape).Idx → EReal) (r : Fin 16384) (o : Fin 2048) : EReal :=
  (∑ k : Fin 2048, X (ix2 r k) * Q (ix2 o k)) * S (ix2 (0 : Fin 1) o) + B (ix2 (0 : Fin 1) o)

/-- The same as an array. -/
def rowsOut (X : (⟨2, ![16384, 2048]⟩ : Shape).Idx → EReal) (Q : (⟨2, ![2048, 2048]⟩ : Shape).Idx → EReal)
    (S B : (⟨2, ![1, 2048]⟩ : Shape).Idx → EReal) : (⟨2, ![16384, 2048]⟩ : Shape).Idx → EReal :=
  fun i => rowsOutAt X Q S B ⟨(i 0).val, (i 0).isLt⟩ ⟨(i 1).val, (i 1).isLt⟩

/-- Digits first, scale last: entry (p, q, o) of the result as the kernel computes it. -/
def scaledAfter (x : (⟨3, ![4, 4096, 2048]⟩ : Shape).Idx → EReal) (w : (⟨2, ![2048, 2048]⟩ : Shape).Idx → EReal)
    (b : (⟨1, ![2048]⟩ : Shape).Idx → EReal) (p : Fin 4) (q : Fin 4096) (o : Fin 2048) : EReal :=
  (∑ k : Fin 2048, x (ix3 p q k) * ternAt w o k) * scaleAt w o + b (ix1 o)

/-- Scale first: the same entry as the reference computes it. -/
def scaledBefore (x : (⟨3, ![4, 4096, 2048]⟩ : Shape).Idx → EReal) (w : (⟨2, ![2048, 2048]⟩ : Shape).Idx → EReal)
    (b : (⟨1, ![2048]⟩ : Shape).Idx → EReal) (p : Fin 4) (q : Fin 4096) (o : Fin 2048) : EReal :=
  (∑ k : Fin 2048, x (ix3 p q k) * (ternAt w o k * scaleAt w o)) + b (ix1 o)

/-- With no infinite weight the two forms agree at every entry. -/
theorem scaledAfter_eq_scaledBefore (x : (⟨3, ![4, 4096, 2048]⟩ : Shape).Idx → EReal)
    (w : (⟨2, ![2048, 2048]⟩ : Shape).Idx → EReal) (b : (⟨1, ![2048]⟩ : Shape).Idx → EReal)
    (hw : ∀ j, w j ≠ ⊤ ∧ w j ≠ ⊥) (p : Fin 4) (q : Fin 4096) (o : Fin 2048) :
    scaledAfter x w b p q o = scaledBefore x w b p q o := by
  have h0 : 0 ≤ scaleAt w o := rowScale_nonneg _
  have ht : scaleAt w o ≠ ⊤ := rowScale_ne_top _ fun k => hw (ix2 o k)
  unfold scaledAfter scaledBefore
  rw [scaled_sum (fun k => x (ix3 p q k)) (fun k => ternAt w o k) h0 ht]

end Cert.TernaryLinear

end
-- ==== Proof.KernelRun.lean ====
/-
  The kernel program's run with its result buffer named.

  The program is two grid regions among three stretches of host operations. Every weakly fair execution ends, on each
  core, with every unscoped buffer at the last boundary's contents: the launch memory pushed through region 0's
  write-backs, the host operations between the regions, region 1's write-backs and the closing reshape. The generated
  frame reads only the three argument buffers off that last boundary; read here is the result buffer as well, so that
  the value of the program is a statement about the boundary contents and no longer about executions.
-/
import proofs.«151701_j52707838657223_2_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents of that buffer, and the three arguments hold what they were launched with. -/
theorem run_out : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Out

end
-- ==== Proof.Quantize.lean ====
/-
  Region 0: what the quantising kernel leaves in its two output arrays.

  The region walks the weight matrix in four blocks of 512 rows. At a block it computes, for each of its rows, the
  row's scale (the floor eps against the largest absolute value of the row's 2048 entries) and, for every entry, its
  ternary digit against that scale; both depend on the row alone, so the block of results is the block of one
  whole-array function of the weight matrix. The four blocks tile the rows: row o lies in block o / 512. Hence after the
  region the digit array holds the digit of every entry and the scale array the scale of every row, whatever the
  region found in the weight buffer (its entry contents are a parameter here).
-/
import proofs.«151701_j52707838657223_2_alg».proof.Proof.Gen.KernelIdeal.Frame
import proofs.«151701_j52707838657223_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Quantize

open Idealize.ShloMosaic Idealize.ShloMosaic.TcCoe Idealize.SL.Sem Idealize.ShloMosaic.ValueIdx
open Idealize.ShloMosaic.Pipeline (Dat)
open Cert.KernelIdeal Cert.KernelIdeal.Gen Cert.TernaryLinear

theorem offsets_zero : (![0, 0] : Fin 2 → Nat) = fun _ => 0 := funext fun a => by fin_cases a <;> rfl

/-! ## The body's two stored values at an entry -/

/-- A vector of 512 entries recast as a column reads, at (p, 0), its entry p. -/
theorem column_cast (v : FVec Ideal S512 .f32) (p : Fin 512) (z : Fin 1) :
    shapeCast S512x1 v shapeCasts_S512_S512x1 (ix2 p z) = v (ix1 p) :=
  shapeCast_apply v shapeCasts_S512_S512x1 (ix2 p z) (ix1 p) (by
      rw [Shape.rowMajor_val_one, Shape.rowMajor_val_two]
      show p.val = p.val * 1 + z.val
      have := z.isLt; omega)

/-- Row p of a block with coordinate k put back on the reduced axis is the entry (p, k). -/
theorem lift_eq (p : Fin 512) (k : Fin 2048) : reduces_S512x2048_S512.lift (ix1 p) k = ix2 p k :=
  funext fun a => Fin.ext (by
    match a with
    | ⟨0, _⟩ => rfl
    | ⟨1, _⟩ => rfl)

/-- The lane maximum of a block at row p is the maximum folded over the row's 2048 entries. -/
theorem row_max (y : FVec Ideal S512x2048 .f32) (p : Fin 512) :
    multiReduction (F := Ideal) .maximumf [1] S512 y 0xFF800000#32 reduces_S512x2048_S512 (.inl rfl) rfl (ix1 p)
      = (Finset.univ : Finset (Fin 2048)).fold max (FloatOps.ofBits (F := Ideal) .f32 0xFF800000#32) (fun k => y (ix2 p k)) := by
  refine (Ideal.multiReduction_maximumf_single y 0xFF800000#32 reduces_S512x2048_S512 (.inl rfl) rfl (ix1 p)).trans ?_
  refine congrArg (fun f : Fin 2048 → EReal => (Finset.univ : Finset (Fin 2048)).fold max (FloatOps.ofBits (F := Ideal) .f32 0xFF800000#32) f) (funext fun k => ?_)
  exact congrArg y (lift_eq p k)

/-- Entry (p, 0) of the stored scale column is the scale of row p of the loaded block. -/
theorem scale_payload (x0 : FVec Ideal S512x2048 .f32) (p : Fin 512) (z : Fin 1) :
    k0_pay1 (F := Ideal) x0 (ix2 p z) = rowScale fun k => x0 (ix2 p k) := by
  unfold k0_pay1
  refine (maximumf_apply _ _ (ix2 p z)).trans ?_
  unfold rowScale rowAbsMax
  refine congrArg₂ max rfl ?_
  exact (column_cast _ p z).trans (row_max (absf x0) p)

/-- A column broadcast along the rows reads, at (p, k), the column's entry (p, 0). -/
theorem column_broadcast (v : FVec Ideal S512x1 .f32) (p : Fin 512) (k : Fin 2048) :
    broadcastTo S512x2048 v broadcasts_S512x1_S512x2048 (ix2 p k) = v (ix2 p (0 : Fin 1)) :=
  broadcastTo_apply _ _ _ _ (fun a => by
      match a with
      | ⟨0, _⟩ => show p.val = if (512 : Nat) = 1 then 0 else p.val; rw [if_neg (by decide)]
      | ⟨1, _⟩ => show 0 = if (1 : Nat) = 1 then 0 else k.val; rw [if_pos rfl])

/-- A choice between two values depends only on its condition and its two branches. -/
theorem select_congr {α : Type} {c c' : BitVec 1} {a a' b b' : α} (hc : c = c') (ha : a = a') (hb : b = b') :
    Scalar.select c a b = Scalar.select c' a' b' := by subst hc ha hb; rfl

/-- The comparison of a quotient of two blocks with a splat constant, at an entry. -/
theorem compare_entry (pr : CmpFPredicate) (x B : FVec Ideal S512x2048 .f32) (w : BitVec 32) (i : S512x2048.Idx) :
    cmpf pr (divf x B) (broadcast S512x2048 (FloatOps.ofBits (F := Ideal) .f32 w)) i
      = Ideal.cmp pr (Ideal.div (x i) (B i)) (Ideal.ofBits .f32 w) := rfl

/-- Entry (p, k) of the stored digits is the digit of the block's entry against its row's scale. -/
theorem digit_payload (x0 : FVec Ideal S512x2048 .f32) (p : Fin 512) (k : Fin 2048) :
    k0_pay2 (F := Ideal) x0 (ix2 p k) = tern (rowScale fun k' => x0 (ix2 p k')) (x0 (ix2 p k)) := by
  have hB := column_broadcast (k0_pay1 (F := Ideal) x0) p k
  rw [scale_payload] at hB
  unfold k0_pay2
  generalize broadcastTo S512x2048 (k0_pay1 (F := Ideal) x0) broadcasts_S512x1_S512x2048 = B at hB ⊢
  rw [← hB]
  unfold tern
  refine (truncf_apply (φ := .f32) (ψ := .bf16) _ bitsLt_bf16_f32 (ix2 p k)).trans ?_
  refine (select_apply _ _ _ (ix2 p k)).trans (select_congr (compare_entry _ x0 B _ _) rfl ?_)
  exact (select_apply _ _ _ (ix2 p k)).trans (select_congr (compare_entry _ x0 B _ _) rfl rfl)

/-! ## The blocks -/

section Blocks

variable (V : (c : Dev nD) → (b : Ref sig .tc) → Buf (Elt Ideal) ((c : Thread nD τ).loc b))

/-- The three windows' block indices at grid point t: block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The weight window's block at point t is rows 512 t … 512 t + 511 of the weight buffer as the region finds it. -/
theorem weight_block (c : Dev nD) (t : Fin cfg0.N) (p : Fin 512) (k : Fin 2048) (o : Fin 2048) (ho : o.val = t.val * 512 + p.val) :
    (iblk0 V c 0 t : Vec Ideal S512x2048 .f32) (ix2 p k) = (V c main_arg1 : S2048x2048.Idx → EReal) (ix2 o k) := by
  obtain ⟨e0, e1, -⟩ := idx_facts t
  unfold iblk0
  rw [View.read_apply]
  show V c main_arg1 (((cfg0.win 0).blk t).view.emb (ix2 p k)) = V c main_arg1 (ix2 o k)
  refine congrArg (V c main_arg1) (funext fun a => Fin.ext ?_)
  match a with
  | ⟨0, _⟩ => show win0_0.index t (0 : Fin 2) * 512 + 1 * p.val = o.val; rw [e0, ho]; omega
  | ⟨1, _⟩ => show win0_0.index t (1 : Fin 2) * 2048 + 1 * k.val = k.val; rw [e1]; omega

/-- The weight window's rows at point t, as a row of the weight buffer. -/
theorem weight_row (c : Dev nD) (t : Fin cfg0.N) (p : Fin 512) (o : Fin 2048) (ho : o.val = t.val * 512 + p.val) :
    (fun k => (iblk0 V c 0 t : Vec Ideal S512x2048 .f32) (ix2 p k)) = fun k => (V c main_arg1 : S2048x2048.Idx → EReal) (ix2 o k) :=
  funext fun k => weight_block V c t p k o ho

/-- What point t writes back through the digit window: block t of the digit array of the weight buffer. -/
theorem flushed_digits (c : Dev nD) (t : Fin cfg0.N) :
    (dat0 V c).flushed 1 t = ((cfg0.win 1).blk t).view.read (Elt Ideal) (digits (V c main_arg1)) := by
  show (cfg0.win 1).cut (grid0.coords t) ((dat0 V c).after 1 t) = _
  rw [after0_1]
  unfold out0_1
  rw [View.canon_unit_zero offsets_zero]
  simp only [View.ld_unit_zero (S := S512x2048) offsets_zero]
  funext j
  obtain ⟨p, k, rfl⟩ : ∃ (p : Fin 512) (k : Fin 2048), j = ix2 p k := ⟨j 0, j 1, eq_ix2 j⟩
  obtain ⟨-, -, e2, e3, -⟩ := idx_facts t
  have hp := p.isLt
  have ht : t.val < 4 := N_0 ▸ t.isLt
  have ho : t.val * 512 + p.val < 2048 := by omega
  show k0_pay2 (F := Ideal) (iblk0 V c 0 t) (ix2 p k) = digits (V c main_arg1) (((cfg0.win 1).blk t).view.emb (ix2 p k))
  refine (digit_payload (iblk0 V c 0 t) p k).trans ?_
  rw [weight_row V c t p ⟨_, ho⟩ rfl, weight_block V c t p k ⟨_, ho⟩ rfl]
  unfold digits
  refine congrArg₂ (ternAt (V c main_arg1)) (Fin.ext ?_) (Fin.ext ?_)
  · show t.val * 512 + p.val = win0_1.index t (0 : Fin 2) * 512 + 1 * p.val
    rw [e2]; omega
  · show k.val = win0_1.index t (1 : Fin 2) * 2048 + 1 * k.val
    rw [e3]; omega

/-- What point t writes back through the scale window: block t of the scale column of the weight buffer. -/
theorem flushed_scales (c : Dev nD) (t : Fin cfg0.N) :
    (dat0 V c).flushed 2 t = ((cfg0.win 2).blk t).view.read (Elt Ideal) (scales (V c main_arg1)) := by
  show (cfg0.win 2).cut (grid0.coords t) ((dat0 V c).after 2 t) = _
  rw [after0_2]
  unfold out0_2
  rw [View.canon_unit_zero offsets_zero]
  simp only [View.ld_unit_zero (S := S512x2048) offsets_zero]
  funext j
  obtain ⟨p, z, rfl⟩ : ∃ (p : Fin 512) (z : Fin 1), j = ix2 p z := ⟨j 0, j 1, eq_ix2 j⟩
  obtain ⟨-, -, -, -, e4, -⟩ := idx_facts t
  have hp := p.isLt
  have ht : t.val < 4 := N_0 ▸ t.isLt
  have ho : t.val * 512 + p.val < 2048 := by omega
  show k0_pay1 (F := Ideal) (iblk0 V c 0 t) (ix2 p z) = scales (V c main_arg1) (((cfg0.win 2).blk t).view.emb (ix2 p z))
  refine (scale_payload (iblk0 V c 0 t) p z).trans ?_
  rw [weight_row V c t p ⟨_, ho⟩ rfl]
  unfold scales
  refine congrArg (scaleAt (V c main_arg1)) (Fin.ext ?_)
  show t.val * 512 + p.val = win0_2.index t (0 : Fin 2) * 512 + 1 * p.val
  rw [e4]; omega

/-- An entry of the digit array is in point t's block iff each coordinate is in the block's range on its axis. -/
theorem mem_digit_block (t : Fin cfg0.N) (i : S2048x2048.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v0_0).slice (win0_1.rect t)).set ↔ _
  rw [View.set_slice_whole, Rect.mem_set_unit]
  exact Iff.rfl

/-- The same for the scale column. -/
theorem mem_scale_block (t : Fin cfg0.N) (i : S2048x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_1).slice (win0_2.rect t)).set ↔ _
  rw [View.set_slice_whole, Rect.mem_set_unit]
  exact Iff.rfl

/-- Every entry of the digit array lies in the block of the point that holds its row: row o is in block o / 512. -/
theorem digit_cover (i : S2048x2048.Idx) : ∃ t : Fin cfg0.N, (cfg0.win 1).flush t = true ∧ i ∈ ((cfg0.win 1).blk t).view.set := by
  have hi0 : (i 0).val < 2048 := (i 0).isLt
  have hi1 : (i 1).val < 2048 := (i 1).isLt
  have hN : cfg0.N = 4 := N_0
  have hq : (i 0).val / 512 < cfg0.N := by rw [hN]; omega
  obtain ⟨-, -, e2, e3, -⟩ := idx_facts ⟨(i 0).val / 512, hq⟩
  refine ⟨⟨(i 0).val / 512, hq⟩, flush0_1 _, ?_⟩
  rw [mem_digit_block]
  intro a
  match a with
  | ⟨0, _⟩ =>
    show win0_1.index ⟨(i 0).val / 512, hq⟩ (0 : Fin 2) * 512 ≤ (i 0).val ∧ (i 0).val < win0_1.index ⟨(i 0).val / 512, hq⟩ (0 : Fin 2) * 512 + 512
    rw [e2]; show (i 0).val / 512 * 512 ≤ (i 0).val ∧ (i 0).val < (i 0).val / 512 * 512 + 512; omega
  | ⟨1, _⟩ =>
    show win0_1.index ⟨(i 0).val / 512, hq⟩ (1 : Fin 2) * 2048 ≤ (i 1).val ∧ (i 1).val < win0_1.index ⟨(i 0).val / 512, hq⟩ (1 : Fin 2) * 2048 + 2048
    rw [e3]; omega

/-- Every entry of the scale column lies in the block of the point that holds its row. -/
theorem scale_cover (i : S2048x1.Idx) : ∃ t : Fin cfg0.N, (cfg0.win 2).flush t = true ∧ i ∈ ((cfg0.win 2).blk t).view.set := by
  have hi0 : (i 0).val < 2048 := (i 0).isLt
  have hi1 : (i 1).val < 1 := (i 1).isLt
  have hN : cfg0.N = 4 := N_0
  have hq : (i 0).val / 512 < cfg0.N := by rw [hN]; omega
  obtain ⟨-, -, -, -, e4, e5⟩ := idx_facts ⟨(i 0).val / 512, hq⟩
  refine ⟨⟨(i 0).val / 512, hq⟩, flush0_2 _, ?_⟩
  rw [mem_scale_block]
  intro a
  match a with
  | ⟨0, _⟩ =>
    show win0_2.index ⟨(i 0).val / 512, hq⟩ (0 : Fin 2) * 512 ≤ (i 0).val ∧ (i 0).val < win0_2.index ⟨(i 0).val / 512, hq⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, hq⟩ (1 : Fin 2) * 1 ≤ (i 1).val ∧ (i 1).val < win0_2.index ⟨(i 0).val / 512, hq⟩ (1 : Fin 2) * 1 + 1
    rw [e5]; omega

/-- AFTER THE REGION the digit array holds the digits of the weight buffer as the region found it, -/
theorem final_digits (c : Dev nD) : (dat0 V c).arrAt 1 cfg0.N = digits (V c main_arg1) :=
  (dat0 V c).arrAt_eq_of_cover 1 (digits (V c main_arg1)) (fun t _ => flushed_digits V c t) digit_cover

/-- and the scale array the scales of its rows. -/
theorem final_scales (c : Dev nD) : (dat0 V c).arrAt 2 cfg0.N = scales (V c main_arg1) :=
  (dat0 V c).arrAt_eq_of_cover 2 (scales (V c main_arg1)) (fun t _ => flushed_scales V c t) scale_cover

end Blocks

end Cert.KernelIdeal.Quantize

end
-- ==== Proof.LibDotLast.lean ====
/-
  Matrix products whose two operands are both contracted on their LAST axis, read at an entry.

  Rank 2: an [n, K] operand and an [M, K] operand into [n, M] (the right operand "transposed"): entry (p, c) is the
  sum over k of L (p, k) * R (c, k). Rank 3, batched on the leading axis: [B, n, K] and [B, M, K] into [B, n, M]:
  entry (b, p, c) is the sum over k of L (b, p, k) * R (b, c, k). In both, the sum over the dimension numbers'
  contraction index is re-indexed by the one contracted coordinate; the other coordinates of the two operand indices
  are read off the output index. Over the extended reals a kernel's matrix unit into a zero accumulator and the host's
  dot_general are both this sum: nothing is left of rounding or of the order of accumulation.
-/
import Idealize.ShloMosaic.PureOps.Ideal.Laws
import Idealize.ShloMosaic.Lib.ValueIdx

noncomputable section

namespace Cert.LibDotLast

open Idealize.ShloMosaic Idealize.ShloMosaic.ValueIdx

section Rank2

variable {n K M : Nat}

/-- Dimension numbers of a rank-2 product contracting both last axes, no batch axis. -/
structure IsLast2 (d : DotDims ⟨2, ![n, K]⟩ ⟨2, ![M, K]⟩ ⟨2, ![n, M]⟩) : Prop where
  lc : d.lhsContracting = [1]
  rc : d.rhsContracting = [1]
  ln : d.lhsNonContracting = [0]
  rn : d.rhsNonContracting = [0]
  lb : d.lhsBatch = []
  rb : d.rhsBatch = []

/-- The contraction sum at output index i is the sum over the contracted coordinate k of (i 0, k) against (i 1, k). -/
theorem sum_contr2 {α : Type} [AddCommMonoid α] (d : DotDims ⟨2, ![n, K]⟩ ⟨2, ![M, K]⟩ ⟨2, ![n, M]⟩) (hd : IsLast2 d)
    (f : (⟨2, ![n, K]⟩ : Shape).Idx → (⟨2, ![M, K]⟩ : Shape).Idx → α) (i : (⟨2, ![n, M]⟩ : Shape).Idx) :
    ∑ q : d.contr.Idx, f (d.lhsIdx i q) (d.rhsIdx i q) = ∑ k : Fin K, f (ix2 (i 0) k) (ix2 (i 1) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![M, K]⟩ ⟨2, ![n, M]⟩ := ⟨[1], [1], [0], [0], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 (i 1) k := funext fun a => Fin.ext (by
    match a with
    | ⟨0, _⟩ =>
      show (d.rhsIdx i _ 0).val = (i 1).val
      unfold DotDims.rhsIdx
      rw [dif_neg (show ¬(0 : Fin (⟨2, ![M, K]⟩ : Shape).rank) ∈ d.rhsBatch from List.not_mem_nil),
        dif_pos (show (0 : Fin (⟨2, ![M, K]⟩ : Shape).rank) ∈ d.rhsNonContracting from List.mem_singleton.mpr rfl)]
      rfl
    | ⟨1, _⟩ => exact (d.rhsIdx_val_of_single rfl i _).trans hk)
  rw [el, er]
  try rfl

variable {φ₁ φ₂ : FTy}

/-- A kernel's matrix-unit product with such dimension numbers into a zero accumulator, at entry (p, c). -/
theorem matmul_zero_apply (d : DotDims ⟨2, ![n, K]⟩ ⟨2, ![M, K]⟩ ⟨2, ![n, M]⟩) (hd : IsLast2 d) (prec : Option ContractPrecision)
    (lhs : FVec Ideal ⟨2, ![n, K]⟩ φ₁) (rhs : FVec Ideal ⟨2, ![M, K]⟩ φ₂) (p : Fin n) (c : Fin M) :
    FloatOps.matmul d prec lhs rhs (constant ⟨2, ![n, M]⟩ .f32 0x00000000#32) (ix2 p c)
      = ∑ k : Fin K, lhs (ix2 p k) * rhs (ix2 c k) :=
  (Ideal.matmul_constant_zero_apply d prec lhs rhs (ix2 p c)).trans
    (sum_contr2 d hd (fun a b => lhs a * rhs b) (ix2 p c))

end Rank2

section Rank3

variable {B n K M : Nat}

/-- Dimension numbers of a rank-3 product batched on axis 0 and contracting both last axes. -/
structure IsLast3 (d : DotDims ⟨3, ![B, n, K]⟩ ⟨3, ![B, M, K]⟩ ⟨3, ![B, n, M]⟩) : Prop where
  lc : d.lhsContracting = [2]
  rc : d.rhsContracting = [2]
  ln : d.lhsNonContracting = [1]
  rn : d.rhsNonContracting = [1]
  lb : d.lhsBatch = [0]
  rb : d.rhsBatch = [0]

/-- The contraction sum at output index i is the sum over k of (i 0, i 1, k) against (i 0, i 2, k). -/
theorem sum_contr3 {α : Type} [AddCommMonoid α] (d : DotDims ⟨3, ![B, n, K]⟩ ⟨3, ![B, M, K]⟩ ⟨3, ![B, n, M]⟩) (hd : IsLast3 d)
    (f : (⟨3, ![B, n, K]⟩ : Shape).Idx → (⟨3, ![B, M, K]⟩ : Shape).Idx → α) (i : (⟨3, ![B, n, M]⟩ : Shape).Idx) :
    ∑ q : d.contr.Idx, f (d.lhsIdx i q) (d.rhsIdx i q) = ∑ k : Fin K, f (ix3 (i 0) (i 1) k) (ix3 (i 0) (i 2) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨3, ![B, n, K]⟩ ⟨3, ![B, M, K]⟩ ⟨3, ![B, n, M]⟩ := ⟨[2], [2], [1], [1], [0], [0], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix3 (i 0) (i 1) k := funext fun a => Fin.ext (by
    match a with
    | ⟨0, _⟩ =>
      show (d.lhsIdx i _ 0).val = (i 0).val
      unfold DotDims.lhsIdx
      rw [dif_pos (show (0 : Fin (⟨3, ![B, n, K]⟩ : Shape).rank) ∈ d.lhsBatch from List.mem_singleton.mpr rfl)]
      rfl
    | ⟨1, _⟩ =>
      show (d.lhsIdx i _ 1).val = (i 1).val
      unfold DotDims.lhsIdx
      rw [dif_neg (show ¬(1 : Fin (⟨3, ![B, n, K]⟩ : Shape).rank) ∈ d.lhsBatch from fun h => Nat.one_ne_zero (congrArg Fin.val (List.mem_singleton.mp h))),
        dif_pos (show (1 : Fin (⟨3, ![B, n, K]⟩ : Shape).rank) ∈ d.lhsNonContracting from List.mem_singleton.mpr rfl)]
      rfl
    | ⟨2, _⟩ => exact (d.lhsIdx_val_of_single rfl i _).trans hk)
  have er : d.rhsIdx i ((contrEquiv1 d K rfl rfl).symm k) = ix3 (i 0) (i 2) k := funext fun a => Fin.ext (by
    match a with
    | ⟨0, _⟩ =>
      show (d.rhsIdx i _ 0).val = (i 0).val
      unfold DotDims.rhsIdx
      rw [dif_pos (show (0 : Fin (⟨3, ![B, M, K]⟩ : Shape).rank) ∈ d.rhsBatch from List.mem_singleton.mpr rfl)]
      rfl
    | ⟨1, _⟩ =>
      show (d.rhsIdx i _ 1).val = (i 2).val
      unfold DotDims.rhsIdx
      rw [dif_neg (show ¬(1 : Fin (⟨3, ![B, M, K]⟩ : Shape).rank) ∈ d.rhsBatch from fun h => Nat.one_ne_zero (congrArg Fin.val (List.mem_singleton.mp h))),
        dif_pos (show (1 : Fin (⟨3, ![B, M, K]⟩ : Shape).rank) ∈ d.rhsNonContracting from List.mem_singleton.mpr rfl)]
      rfl
    | ⟨2, _⟩ => exact (d.rhsIdx_val_of_single rfl i _).trans hk)
  rw [el, er]
  try rfl

variable {φ₁ φ₂ : FTy}

/-- The host's dot_general with such dimension numbers, at entry (b, p, c). -/
theorem dotGeneral_apply (d : DotDims ⟨3, ![B, n, K]⟩ ⟨3, ![B, M, K]⟩ ⟨3, ![B, n, M]⟩) (hd : IsLast3 d) (prec : Option ContractPrecision)
    (sched : HostSchedule) (lhs : FVec Ideal ⟨3, ![B, n, K]⟩ φ₁) (rhs : FVec Ideal ⟨3, ![B, M, K]⟩ φ₂)
    (b : Fin B) (p : Fin n) (c : Fin M) :
    FloatOps.dotGeneral d prec sched lhs rhs (ix3 b p c) = ∑ k : Fin K, lhs (ix3 b p k) * rhs (ix3 b c k) :=
  (Ideal.dotGeneral_apply d prec sched lhs rhs (ix3 b p c)).trans
    (sum_contr3 d hd (fun a b => lhs a * rhs b) (ix3 b p c))

end Rank3

end Cert.LibDotLast

end
-- ==== Proof.Product.lean ====
/-
  Region 1: what the matrix-product kernel leaves in its output array.

  The region walks the 16384 input rows in 32 blocks of 512. At a block it multiplies the block's rows with the rows
  of the whole digit matrix (both operands contracted over their last axis, into a zero accumulator), scales column
  o of the product by entry o of the scale row, and adds entry o of the bias row. The digit matrix, the scale row and
  the bias row are the same at every point; the input block at point t is rows 512 t … 512 t + 511. So the block of
  results is the block of one whole-array function of the four arrays the region finds, and the 32 blocks tile the rows:
  row r lies in block r / 512.
-/
import proofs.«151701_j52707838657223_2_alg».proof.Proof.Gen.KernelIdeal.Frame
import proofs.«151701_j52707838657223_2_alg».proof.Proof.Spec
import proofs.«151701_j52707838657223_2_alg».proof.Proof.LibDotLast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Product

open Idealize.ShloMosaic Idealize.ShloMosaic.TcCoe Idealize.SL.Sem Idealize.ShloMosaic.ValueIdx
open Idealize.ShloMosaic.Pipeline (Dat)
open Cert.KernelIdeal Cert.KernelIdeal.Gen Cert.TernaryLinear

theorem offsets_zero : (![0, 0] : Fin 2 → Nat) = fun _ => 0 := funext fun a => by fin_cases a <;> rfl

/-- The product contracts both operands over their last axis and has no batch axis. -/
theorem dims_last : Cert.LibDotLast.IsLast2 dot_S512x2048_S2048x2048_S512x2048_1_1_0_0_n_n := ⟨rfl, rfl, rfl, rfl, rfl, rfl⟩

/-- Entry (p, o) of the stored block: row p of the input block against row o of the digit matrix, times entry o of
    the scale row, plus entry o of the bias row. -/
theorem product_payload (x0 : FVec Ideal S512x2048 .f32) (qw : FVec Ideal S2048x2048 .bf16) (s b : FVec Ideal S1x2048 .f32)
    (p : Fin 512) (o : Fin 2048) :
    k1_pay1 (F := Ideal) x0 qw s b (ix2 p o)
      = (∑ k : Fin 2048, x0 (ix2 p k) * qw (ix2 o k)) * s (ix2 (0 : Fin 1) o) + b (ix2 (0 : Fin 1) o) := by
  unfold k1_pay1
  rw [shapeCast_self x0, shapeCast_self qw, shapeCast_self s, shapeCast_self b]
  refine (addf_apply _ _ (ix2 p o)).trans (congrArg₂ (fun a c : EReal => a + c) ?_ (broadcastTo_1b_ab_apply b _ p o))
  refine (mulf_apply _ _ (ix2 p o)).trans (congrArg₂ (fun a c : EReal => a * c) ?_ (broadcastTo_1b_ab_apply s _ p o))
  exact Cert.LibDotLast.matmul_zero_apply _ dims_last none (truncf .bf16 x0 bitsLt_bf16_f32) qw p o

/-! ## The blocks -/

section Blocks

variable (V : (c : Dev nD) → (b : Ref sig .tc) → Buf (Elt Ideal) ((c : Thread nD τ).loc b))

/-- The five windows' block indices at grid point t: the input and the output move with t, the other three stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The input window's block at point t is rows 512 t … 512 t + 511 of the input rows as the region finds them. -/
theorem input_block (c : Dev nD) (t : Fin cfg1.N) (p : Fin 512) (k : Fin 2048) (r : Fin 16384) (hr : r.val = t.val * 512 + p.val) :
    (iblk1 V c 0 t : Vec Ideal S512x2048 .f32) (ix2 p k) = (V c main_v2 : S16384x2048.Idx → EReal) (ix2 r k) := by
  obtain ⟨e0, e1, -⟩ := idx_facts t
  unfold iblk1
  rw [View.read_apply]
  show V c main_v2 (((cfg1.win 0).blk t).view.emb (ix2 p k)) = V c main_v2 (ix2 r k)
  refine congrArg (V c main_v2) (funext fun a => Fin.ext ?_)
  match a with
  | ⟨0, _⟩ => show win1_0.index t (0 : Fin 2) * 512 + 1 * p.val = r.val; rw [e0, hr]; omega
  | ⟨1, _⟩ => show win1_0.index t (1 : Fin 2) * 2048 + 1 * k.val = k.val; rw [e1]; omega

/-- The digit window's block is the whole digit array at every point. -/
theorem digit_block (c : Dev nD) (t : Fin cfg1.N) (o k : Fin 2048) :
    (iblk1 V c 1 t : Vec Ideal S2048x2048 .bf16) (ix2 o k) = (V c main_v0_0 : S2048x2048.Idx → EReal) (ix2 o k) := by
  obtain ⟨-, -, e2, e3, -⟩ := idx_facts t
  unfold iblk1
  rw [View.read_apply]
  show V c main_v0_0 (((cfg1.win 1).blk t).view.emb (ix2 o k)) = V c main_v0_0 (ix2 o k)
  refine congrArg (V c main_v0_0) (funext fun a => Fin.ext ?_)
  match a with
  | ⟨0, _⟩ => show win1_1.index t (0 : Fin 2) * 2048 + 1 * o.val = o.val; rw [e2]; omega
  | ⟨1, _⟩ => show win1_1.index t (1 : Fin 2) * 2048 + 1 * k.val = k.val; rw [e3]; omega

/-- The scale window's block is the whole scale row at every point. -/
theorem scale_block (c : Dev nD) (t : Fin cfg1.N) (o : Fin 2048) :
    (iblk1 V c 2 t : Vec Ideal S1x2048 .f32) (ix2 (0 : Fin 1) o) = (V c main_v1 : S1x2048.Idx → EReal) (ix2 (0 : Fin 1) o) := by
  obtain ⟨-, -, -, -, e4, e5, -⟩ := idx_facts t
  unfold iblk1
  rw [View.read_apply]
  show V c main_v1 (((cfg1.win 2).blk t).view.emb (ix2 (0 : Fin 1) o)) = V c main_v1 (ix2 (0 : Fin 1) o)
  refine congrArg (V c main_v1) (funext fun a => Fin.ext ?_)
  match a with
  | ⟨0, _⟩ => show win1_2.index t (0 : Fin 2) * 1 + 1 * 0 = 0; rw [e4]
  | ⟨1, _⟩ => show win1_2.index t (1 : Fin 2) * 2048 + 1 * o.val = o.val; rw [e5]; omega

/-- The bias window's block is the whole bias row at every point. -/
theorem bias_block (c : Dev nD) (t : Fin cfg1.N) (o : Fin 2048) :
    (iblk1 V c 3 t : Vec Ideal S1x2048 .f32) (ix2 (0 : Fin 1) o) = (V c main_v3 : S1x2048.Idx → EReal) (ix2 (0 : Fin 1) o) := by
  obtain ⟨-, -, -, -, -, -, e6, e7, -⟩ := idx_facts t
  unfold iblk1
  rw [View.read_apply]
  show V c main_v3 (((cfg1.win 3).blk t).view.emb (ix2 (0 : Fin 1) o)) = V c main_v3 (ix2 (0 : Fin 1) o)
  refine congrArg (V c main_v3) (funext fun a => Fin.ext ?_)
  match a with
  | ⟨0, _⟩ => show win1_3.index t (0 : Fin 2) * 1 + 1 * 0 = 0; rw [e6]
  | ⟨1, _⟩ => show win1_3.index t (1 : Fin 2) * 2048 + 1 * o.val = o.val; rw [e7]; omega

/-- What point t writes back: block t of the scaled and shifted product of the four arrays the region finds. -/
theorem flushed_rows (c : Dev nD) (t : Fin cfg1.N) :
    (dat1 V c).flushed 4 t
      = ((cfg1.win 4).blk t).view.read (Elt Ideal) (rowsOut (V c main_v2) (V c main_v0_0) (V c main_v1) (V c main_v3)) := by
  show (cfg1.win 4).cut (grid1.coords t) ((dat1 V c).after 4 t) = _
  rw [after1_4]
  unfold out1_4
  rw [View.canon_unit_zero offsets_zero]
  simp only [View.ld_unit_zero (S := S512x2048) offsets_zero, View.ld_unit_zero (S := S2048x2048) offsets_zero,
    View.ld_unit_zero (S := S1x2048) offsets_zero]
  funext j
  obtain ⟨p, o, rfl⟩ : ∃ (p : Fin 512) (o : Fin 2048), j = ix2 p o := ⟨j 0, j 1, eq_ix2 j⟩
  obtain ⟨-, -, -, -, -, -, -, -, e8, e9⟩ := idx_facts t
  have hp := p.isLt
  have ht : t.val < 32 := N_1 ▸ t.isLt
  have hr : t.val * 512 + p.val < 16384 := by omega
  show k1_pay1 (F := Ideal) (iblk1 V c 0 t) (iblk1 V c 1 t) (iblk1 V c 2 t) (iblk1 V c 3 t) (ix2 p o)
    = rowsOut (V c main_v2) (V c main_v0_0) (V c main_v1) (V c main_v3) (((cfg1.win 4).blk t).view.emb (ix2 p o))
  refine (product_payload (iblk1 V c 0 t) (iblk1 V c 1 t) (iblk1 V c 2 t) (iblk1 V c 3 t) p o).trans ?_
  rw [scale_block V c t o, bias_block V c t o]
  refine Eq.trans (?_ : _ = rowsOutAt (V c main_v2) (V c main_v0_0) (V c main_v1) (V c main_v3) ⟨t.val * 512 + p.val, hr⟩ o) ?_
  · unfold rowsOutAt
    refine congrArg₂ (fun a b : EReal => a + b)
      (congrArg₂ (fun a b : EReal => a * b) (Finset.sum_congr rfl fun k _ => ?_) rfl) rfl
    rw [input_block V c t p k ⟨_, hr⟩ rfl, digit_block V c t o k]
  · unfold rowsOut
    refine congrArg₂ (rowsOutAt (V c main_v2) (V c main_v0_0) (V c main_v1) (V c main_v3)) (Fin.ext ?_) (Fin.ext ?_)
    · show t.val * 512 + p.val = win1_4.index t (0 : Fin 2) * 512 + 1 * p.val
      rw [e8]; omega
    · show o.val = win1_4.index t (1 : Fin 2) * 2048 + 1 * o.val
      rw [e9]; omega

/-- An entry of the output rows is in point t's block iff each coordinate is in the block's range on its axis. -/
theorem mem_row_block (t : Fin cfg1.N) (i : S16384x2048.Idx) :
    i ∈ ((cfg1.win 4).blk t).view.set ↔ ∀ a : Fin 2, win1_4.index t a * S512x2048.size a ≤ (i a).val ∧ (i a).val < win1_4.index t a * S512x2048.size a + S512x2048.size a := by
  show i ∈ ((View.whole main_v4).slice (win1_4.rect t)).set ↔ _
  rw [View.set_slice_whole, Rect.mem_set_unit]
  exact Iff.rfl

/-- Every entry of the output rows lies in the block of the point that holds its row: row r is in block r / 512. -/
theorem row_cover (i : S16384x2048.Idx) : ∃ t : Fin cfg1.N, (cfg1.win 4).flush t = true ∧ i ∈ ((cfg1.win 4).blk t).view.set := by
  have hi0 : (i 0).val < 16384 := (i 0).isLt
  have hi1 : (i 1).val < 2048 := (i 1).isLt
  have hN : cfg1.N = 32 := N_1
  have hq : (i 0).val / 512 < cfg1.N := by rw [hN]; omega
  obtain ⟨-, -, -, -, -, -, -, -, e8, e9⟩ := idx_facts ⟨(i 0).val / 512, hq⟩
  refine ⟨⟨(i 0).val / 512, hq⟩, flush1_4 _, ?_⟩
  rw [mem_row_block]
  intro a
  match a with
  | ⟨0, _⟩ =>
    show win1_4.index ⟨(i 0).val / 512, hq⟩ (0 : Fin 2) * 512 ≤ (i 0).val ∧ (i 0).val < win1_4.index ⟨(i 0).val / 512, hq⟩ (0 : Fin 2) * 512 + 512
    rw [e8]; show (i 0).val / 512 * 512 ≤ (i 0).val ∧ (i 0).val < (i 0).val / 512 * 512 + 512; omega
  | ⟨1, _⟩ =>
    show win1_4.index ⟨(i 0).val / 512, hq⟩ (1 : Fin 2) * 2048 ≤ (i 1).val ∧ (i 1).val < win1_4.index ⟨(i 0).val / 512, hq⟩ (1 : Fin 2) * 2048 + 2048
    rw [e9]; omega

/-- AFTER THE REGION the output rows hold the scaled and shifted product of the four arrays the region found. -/
theorem final_rows (c : Dev nD) :
    (dat1 V c).arrAt 4 cfg1.N = rowsOut (V c main_v2) (V c main_v0_0) (V c main_v1) (V c main_v3) :=
  (dat1 V c).arrAt_eq_of_cover 4 (rowsOut (V c main_v2) (V c main_v0_0) (V c main_v1) (V c main_v3))
    (fun t _ => flushed_rows V c t) row_cover

end Blocks

end Cert.KernelIdeal.Product

end
-- ==== Proof.Boundary.lean ====
/-
  The kernel program's result, entry by entry.

  Between the launch memory and the result buffer lie: region 0 (the digit array and the scale column of the weight
  argument), three host operations (the scale column transposed into a row; the input reshaped from [4, 4096, 2048] to
  16384 rows; the bias reshaped into a row), region 1 (the scaled and shifted product of those four arrays), and one
  reshape of the 16384 rows back to [4, 4096, 2048]. Row 4096 p + q of the 16384 is the input row (p, q); entry (0, o)
  of the transposed column is the scale of row o. So the result at (p, q, o) is the sum over k of
  x (p, q, k) * digit (o, k), times the scale of row o, plus the bias of channel o: the "scale last" form.
-/
import proofs.«151701_j52707838657223_2_alg».proof.Proof.Gen.KernelIdeal.Frame
import proofs.«151701_j52707838657223_2_alg».proof.Proof.Spec
import proofs.«151701_j52707838657223_2_alg».proof.Proof.Quantize
import proofs.«151701_j52707838657223_2_alg».proof.Proof.Product
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Boundary

open Idealize.ShloMosaic Idealize.ShloMosaic.TcCoe Idealize.SL.Sem Idealize.ShloMosaic.ValueIdx Idealize.ShloMosaic.StableHlo
open Cert.KernelIdeal Cert.KernelIdeal.Gen Cert.TernaryLinear

variable (m : (ℓ : Loc nD τ sig) → Buf (Elt Ideal) ℓ) (ρ : Dev nD → PrngReg)

/-! ## What region 1 finds -/

/-- Its input rows: the input argument reshaped. -/
theorem entry_rows (c : Dev nD) :
    (V2 m ρ c main_v2 : S16384x2048.Idx → EReal)
      = shapeCast S16384x2048 (m ((c : Thread nD τ).loc main_arg0) : S4x4096x2048.Idx → EReal) shapeCasts_S4x4096x2048_S16384x2048 := by
  show StableHlo.after hostOps1 (W1 m ρ c) (Proc.devRef .tc main_v2) = _
  after_results
  rw [W1_of_ne m ρ c main_arg0 (by decide)]
  rfl

/-- Its bias row: the bias argument reshaped. -/
theorem entry_bias (c : Dev nD) :
    (V2 m ρ c main_v3 : S1x2048.Idx → EReal)
      = shapeCast S1x2048 (m ((c : Thread nD τ).loc main_arg2) : S2048.Idx → EReal) shapeCasts_S2048_S1x2048 := by
  show StableHlo.after hostOps1 (W1 m ρ c) (Proc.devRef .tc main_v3) = _
  after_results
  rw [W1_of_ne m ρ c main_arg2 (by decide)]
  rfl

/-- Its digit matrix: what region 0 left, the digits of the weight argument. -/
theorem entry_digits (c : Dev nD) :
    (V2 m ρ c main_v0_0 : S2048x2048.Idx → EReal) = digits (m ((c : Thread nD τ).loc main_arg1)) := by
  show StableHlo.after hostOps1 (W1 m ρ c) (Proc.devRef .tc main_v0_0) = _
  after_results
  rw [show W1 m ρ c (Proc.devRef .tc main_v0_0) = (dat0 (V0 m ρ) c).arrAt 1 cfg0.N from W1_arr m ρ c 1]
  exact Cert.KernelIdeal.Quantize.final_digits (V0 m ρ) c

/-- Its scale row: the scale column region 0 left, transposed. -/
theorem entry_scale (c : Dev nD) :
    (V2 m ρ c main_v1 : S1x2048.Idx → EReal)
      = transpose S1x2048 [1, 0] (scales (m ((c : Thread nD τ).loc main_arg1))) transposes_S2048x1_S1x2048_1_0 := by
  show StableHlo.after hostOps1 (W1 m ρ c) (Proc.devRef .tc main_v1) = _
  after_results
  rw [show W1 m ρ c (Proc.devRef .tc main_v0_1) = (dat0 (V0 m ρ) c).arrAt 2 cfg0.N from W1_arr m ρ c 2,
    Cert.KernelIdeal.Quantize.final_scales (V0 m ρ) c]

/-! ## The result buffer at the last boundary -/

/-- The 16384 rows region 1 left, reshaped. -/
theorem exit_result (c : Dev nD) :
    (W4 m ρ c (Proc.devRef .tc main_v5) : S4x4096x2048.Idx → EReal)
      = shapeCast S4x4096x2048 (rowsOut (V2 m ρ c main_v2) (V2 m ρ c main_v0_0) (V2 m ρ c main_v1) (V2 m ρ c main_v3))
          shapeCasts_S16384x2048_S4x4096x2048 := by
  show StableHlo.after hostOps2 (W3 m ρ c) (Proc.devRef .tc main_v5) = _
  after_results
  rw [show W3 m ρ c (Proc.devRef .tc main_v4) = (dat1 (V2 m ρ) c).arrAt 4 cfg1.N from W3_arr m ρ c 4,
    Cert.KernelIdeal.Product.final_rows (V2 m ρ) c]
  rfl

/-- THE KERNEL PROGRAM'S RESULT at (p, q, o): digits first, scale last. -/
theorem result_entry (c : Dev nD) (p : Fin 4) (q : Fin 4096) (o : Fin 2048) :
    (W4 m ρ c (Proc.devRef .tc main_v5) : S4x4096x2048.Idx → EReal) (ix3 p q o)
      = scaledAfter (m ((c : Thread nD τ).loc main_arg0)) (m ((c : Thread nD τ).loc main_arg1))
          (m ((c : Thread nD τ).loc main_arg2)) p q o := by
  have hp := p.isLt
  have hq := q.isLt
  have hr : p.val * 4096 + q.val < 16384 := by omega
  rw [exit_result]
  refine (shapeCast_apply _ shapeCasts_S16384x2048_S4x4096x2048 (ix3 p q o) (ix2 ⟨p.val * 4096 + q.val, hr⟩ o) (by
    rw [Shape.rowMajor_val_two, Shape.rowMajor_val_three]; rfl)).trans ?_
  unfold rowsOut
  show rowsOutAt _ _ _ _ ⟨p.val * 4096 + q.val, hr⟩ o = _
  unfold rowsOutAt scaledAfter
  rw [entry_rows, entry_digits, entry_scale, entry_bias]
  refine congrArg₂ (fun a b : EReal => a + b)
    (congrArg₂ (fun a b : EReal => a * b)
      (Finset.sum_congr rfl fun k _ => congrArg₂ (fun a b : EReal => a * b) ?_ ?_) ?_) ?_
  · exact shapeCast_apply _ shapeCasts_S4x4096x2048_S16384x2048 (ix2 ⟨p.val * 4096 + q.val, hr⟩ k) (ix3 p q k) (by
      rw [Shape.rowMajor_val_three, Shape.rowMajor_val_two]; rfl)
  · rfl
  · exact (transpose_ix2_apply (scales (m ((c : Thread nD τ).loc main_arg1))) transposes_S2048x1_S1x2048_1_0 (0 : Fin 1) o).trans rfl
  · exact shapeCast_apply _ shapeCasts_S2048_S1x2048 (ix2 (0 : Fin 1) o) (ix1 o) (by
      rw [Shape.rowMajor_val_one, Shape.rowMajor_val_two]
      show o.val = 0 * 2048 + o.val
      omega)

/-- The result as an array. -/
def resultArray (x : S4x4096x2048.Idx → EReal) (w : S2048x2048.Idx → EReal) (b : S2048.Idx → EReal) : S4x4096x2048.Idx → EReal :=
  fun i => scaledAfter x w b ⟨(i 0).val, (i 0).isLt⟩ ⟨(i 1).val, (i 1).isLt⟩ ⟨(i 2).val, (i 2).isLt⟩

/-- The result buffer at the last boundary is that array of the three arguments. -/
theorem result_eq (c : Dev nD) :
    (W4 m ρ c (Proc.devRef .tc main_v5) : S4x4096x2048.Idx → EReal)
      = resultArray (m ((c : Thread nD τ).loc main_arg0)) (m ((c : Thread nD τ).loc main_arg1)) (m ((c : Thread nD τ).loc main_arg2)) := by
  funext i
  obtain ⟨p, q, o, rfl⟩ : ∃ (p : Fin 4) (q : Fin 4096) (o : Fin 2048), i = ix3 p q o := ⟨i 0, i 1, i 2, eq_ix3 i⟩
  exact result_entry m ρ c p q o

end Cert.KernelIdeal.Boundary

end
-- ==== Proof.RefValue.lean ====
/-
  The reference, entry by entry.

  The reference computes the scale of every row of the weight matrix (the floor eps against the row's largest
  absolute value), the ternary digit of every entry against its row's scale, multiplies every digit by the scale,
  contracts the input with that matrix over the last axis of both, and adds the bias along the last axis. Read at
  the entry (p, q, o), stage by stage, this is the sum over k of x (p, q, k) * (digit (o, k) * scale o), plus
  bias o: the "scale first" form.
-/
import proofs.«151701_j52707838657223_2_alg».proof.Proof.RefRead
import proofs.«151701_j52707838657223_2_alg».proof.Proof.Spec

set_option maxRecDepth 16384

noncomputable section

namespace Cert.ReferenceIdeal.Entry

open Idealize.ShloMosaic Idealize.ShloMosaic.TcCoe Idealize.ShloMosaic.ValueIdx
open Cert.ReferenceIdeal Cert.ReferenceIdeal.Gen Cert.ReferenceIdeal.ReadP Cert.TernaryLinear

/-- The row reduction of the weight matrix has the shape facts of a one-axis reduction. -/
theorem reduces_rows : S2048x2048.Reduces [1] S2048 := by decide

/-- Row o with coordinate k put back on the reduced axis is the entry (o, k). -/
theorem lift_eq (o : Fin 2048) (k : Fin 2048) : reduces_rows.lift (ix1 o) k = ix2 o k :=
  funext fun a => Fin.ext (by
    match a with
    | ⟨0, _⟩ => rfl
    | ⟨1, _⟩ => rfl)

/-- The host's row maximum of absolute values at row o is the maximum folded over the row's entries. -/
theorem row_max (x1 : (⟨S2048x2048, .f32⟩ : BufTy).Contents (Elt Ideal)) (o : Fin 2048) :
    val_main_v1 (F := Ideal) x1 (ix1 o) = rowAbsMax fun k => x1 (ix2 o k) := by
  unfold val_main_v1
  refine (Host.reduce_eq_fold_single (s := S2048x2048) (t := S2048) (a := 1) (u := S_) (α := EReal)
    (FloatOps.maximumf (F := Ideal) (φ := .f32)) (val_main_v0 (F := Ideal) x1) (val_main_cst (F := Ideal))
    reducesTo_S2048x2048_S2048_d1 reduces_rows h_S_ (ix1 o)).trans ?_
  unfold rowAbsMax
  refine congrArg (fun f : Fin 2048 → EReal => (Finset.univ : Finset (Fin 2048)).fold max negInf f) (funext fun k => ?_)
  show max (x1 (reduces_rows.lift (ix1 o) k)) (-(x1 (reduces_rows.lift (ix1 o) k))) = _
  exact congrArg (fun i => max (x1 i) (-(x1 i))) (lift_eq o k)

/-- The clipped column at (o, 0) is the scale of row o. -/
theorem scale_entry (x1 : (⟨S2048x2048, .f32⟩ : BufTy).Contents (Elt Ideal)) (o : Fin 2048) (z : Fin 1) :
    val_main_v3 (F := Ideal) x1 (ix2 o z) = scaleAt x1 o := by
  rw [val_main_v3_apply, val_main_call0_v1_apply, val_main_call0_v0_apply, val_main_cst_0_apply, val_main_v2_apply,
    show idx_main_v2 (ix2 o z) = ix1 o from funext fun a => Fin.ext (by match a with | ⟨0, _⟩ => rfl), row_max]
  rfl

/-- The scale column broadcast along the rows reads, at (o, k), the scale of row o. -/
theorem scale_row_entry (x1 : (⟨S2048x2048, .f32⟩ : BufTy).Contents (Elt Ideal)) (o k : Fin 2048) :
    val_main_v4 (F := Ideal) x1 (ix2 o k) = scaleAt x1 o := by
  rw [val_main_v4_apply,
    show idx_main_v4 (ix2 o k) = ix2 o (0 : Fin 1) from funext fun a => Fin.ext (by
      match a with
      | ⟨0, _⟩ => rfl
      | ⟨1, _⟩ => rfl),
    scale_entry]

/-- The digit matrix at (o, k). -/
theorem digit_entry (x1 : (⟨S2048x2048, .f32⟩ : BufTy).Contents (Elt Ideal)) (o k : Fin 2048) :
    val_main_v12 (F := Ideal) x1 (ix2 o k) = ternAt x1 o k := by
  rw [val_main_v12_apply, val_main_v11_apply, val_main_v7_apply, val_main_call2_v0_apply, val_main_cst_5_apply,
    val_main_v10_apply, val_main_v9_apply, val_main_call1_v0_apply, val_main_cst_3_apply, val_main_call1_v1_apply,
    val_main_cst_4_apply, val_main_v5_apply, val_main_v6_apply, val_main_cst_1_apply, val_main_v8_apply,
    val_main_cst_2_apply, scale_row_entry]
  rfl

/-- The scaled digit matrix at (o, k): the digit times its row's scale. -/
theorem scaled_digit_entry (x1 : (⟨S2048x2048, .f32⟩ : BufTy).Contents (Elt Ideal)) (o k : Fin 2048) :
    val_main_v14 (F := Ideal) x1 (ix2 o k) = ternAt x1 o k * scaleAt x1 o := by
  rw [val_main_v14_apply, digit_entry, val_main_v13_apply,
    show idx_main_v13 (ix2 o k) = ix2 o (0 : Fin 1) from funext fun a => Fin.ext (by
      match a with
      | ⟨0, _⟩ => rfl
      | ⟨1, _⟩ => rfl),
    scale_entry]
  rfl

/-- THE REFERENCE'S RESULT at (p, q, o): the contraction of the input row with row o of the scaled digit matrix, plus
    the bias of channel o. -/
theorem result_entry (x0 : (⟨S4x4096x2048, .f32⟩ : BufTy).Contents (Elt Ideal)) (x1 : (⟨S2048x2048, .f32⟩ : BufTy).Contents (Elt Ideal))
    (x2 : (⟨S2048, .f32⟩ : BufTy).Contents (Elt Ideal)) (p : Fin 4) (q : Fin 4096) (o : Fin 2048) :
    val_main_v18 (F := Ideal) x0 x1 x2 (ix3 p q o) = scaledBefore x0 x1 x2 p q o := by
  rw [val_main_v18_apply, val_main_v15_apply, val_main_v17_apply, val_main_v16_apply]
  unfold scaledBefore
  refine congrArg₂ (fun a b : EReal => a + b) (Finset.sum_congr rfl fun k _ => ?_) ?_
  · rw [show lidx_main_v15 (ix3 p q o) k = ix3 p q k from funext fun a => Fin.ext (by
        match a with
        | ⟨0, _⟩ => rfl
        | ⟨1, _⟩ => rfl
        | ⟨2, _⟩ => rfl),
      show ridx_main_v15 (ix3 p q o) k = ix2 o k from funext fun a => Fin.ext (by
        match a with
        | ⟨0, _⟩ => rfl
        | ⟨1, _⟩ => rfl),
      scaled_digit_entry]
  · exact congrArg x2 (funext fun a => Fin.ext (by
      match a with
      | ⟨0, _⟩ => rfl))

end Cert.ReferenceIdeal.Entry

end
-- ==== Proof.Finite.lean ====
/-
  Finite weights, from the precondition.

  The precondition is one bit: the conjunction, over the three inputs, of "every entry has absolute value below +inf".
  That it is 1 gives each conjunct, the conjunct for the weight matrix gives the comparison at every entry, and an
  extended real whose absolute value max(a, -a) is below +inf is neither +inf nor -inf.
-/
import proofs.«151701_j52707838657223_2_alg».proof.Pre_finite_inputs
import Idealize.ShloMosaic.PureOps.Ideal.Laws
import Idealize.ShloMosaic.Lib.ReduceAll
import Idealize.ShloMosaic.Lib.ValueIdx

noncomputable section

namespace Cert.Pre_finite_inputs.Finite

open Idealize.ShloMosaic Cert.Pre_finite_inputs

/-- A rank-0 array has one index. -/
instance : Subsingleton S_.Idx := ⟨fun a b => funext fun d => d.elim0⟩

/-- The word the inputs are compared with denotes +inf. -/
theorem posInf_eq_top : Ideal.ofBits .f32 0x7F800000#32 = ⊤ := by simp [Ideal.ofBits, Ideal.ieee]

/-- An "ordered less than" comparison that answers 1 is a strict inequality of extended reals. -/
theorem lt_of_cmp_olt {a b : EReal} (h : Ideal.cmp .olt a b = 1#1) : a < b := by
  have h2 : BitVec.ofBool (decide (a < b)) = 1#1 := h
  cases hd : decide (a < b)
  · rw [hd] at h2; exact absurd h2 (by decide)
  · exact of_decide_eq_true hd

/-- Under the precondition no entry of the weight matrix is infinite. -/
theorem weight_finite [Facts] (x0 : FVec Ideal S4x4096x2048 .f32) (x1 : FVec Ideal S2048x2048 .f32) (x2 : FVec Ideal S2048 .f32)
    (h : fn (F := Ideal) x0 x1 x2 = fun _ => 1#1) (j : S2048x2048.Idx) : x1 j ≠ ⊤ ∧ x1 j ≠ ⊥ := by
  have h0 := congrFun h ValueIdx.ix0
  dsimp only [fn] at h0
  obtain ⟨h8, -⟩ := IntOp.andi_eq_one.1 h0
  obtain ⟨-, h7⟩ := IntOp.andi_eq_one.1 h8
  have hj := Host.reduce_andi_all _ _ _ _ _ h7 j
  have hlt : max (x1 j) (-(x1 j)) < ⊤ := by
    rw [← posInf_eq_top]
    exact lt_of_cmp_olt hj
  have h1 : x1 j < ⊤ := lt_of_le_of_lt (le_max_left _ _) hlt
  have h2 : -(x1 j) < ⊤ := lt_of_le_of_lt (le_max_right _ _) hlt
  refine ⟨ne_of_lt h1, fun hb => ?_⟩
  rw [hb] at h2
  exact absurd h2 (by simp)

end Cert.Pre_finite_inputs.Finite

end
-- ==== Proof.lean ====
/-
  A linear layer with ternary weights: the kernel program against its reference, over the extended reals.

  Both programs replace every row of the weight matrix by ternary digits and one scale s = max(eps, max |row|): the
  digit of an entry is +1, -1 or 0 as the entry over s is above one half, below minus one half, or neither. The kernel
  program multiplies the input rows with the digit matrix, scales the finished sums and adds the bias (two grid
  regions: one that writes the digits and the scales, one that multiplies); the reference scales the digit matrix
  first, multiplies, and adds the bias. Entry (p, q, o) of the one is

      (sum over k of x (p, q, k) * digit (o, k)) * s o + bias o

  and of the other

      (sum over k of x (p, q, k) * (digit (o, k) * s o)) + bias o.

  The scale is at least eps, so it is not negative, and it is below +inf because no weight is infinite (the
  precondition); multiplication by such a factor distributes over every finite sum of extended reals, which makes the
  two entries equal. Nothing else of the precondition is used: the input and the bias may hold any extended reals.

  The three frames are the generated ones (the reference's is its run with the result dropped), the idealization
  rewrote nothing, and the equality of the results is assembled here from: the kernel program's run with its result
  buffer named (Proof/KernelRun), the two regions' output arrays (Proof/Quantize, Proof/Product), the host operations
  between them (Proof/Boundary), the reference read entry by entry (Proof/RefValue), finiteness of the weights
  (Proof/Finite) and the law (Proof/Spec).
-/
import proofs.«151701_j52707838657223_2_alg».proof.Defs
import proofs.«151701_j52707838657223_2_alg».proof.Proof.Gen.Kernel
import proofs.«151701_j52707838657223_2_alg».proof.Proof.Gen.Kernel.Skeleton
import proofs.«151701_j52707838657223_2_alg».proof.Proof.Gen.Kernel.Launch
import proofs.«151701_j52707838657223_2_alg».proof.Proof.Gen.Kernel.Points
import proofs.«151701_j52707838657223_2_alg».proof.Proof.Gen.Kernel.Frame
import proofs.«151701_j52707838657223_2_alg».proof.Proof.Gen.KernelIdeal
import proofs.«151701_j52707838657223_2_alg».proof.Proof.Gen.KernelIdeal.Skeleton
import proofs.«151701_j52707838657223_2_alg».proof.Proof.Gen.KernelIdeal.Launch
import proofs.«151701_j52707838657223_2_alg».proof.Proof.Gen.KernelIdeal.Points
import proofs.«151701_j52707838657223_2_alg».proof.Proof.Gen.KernelIdeal.Frame
import proofs.«151701_j52707838657223_2_alg».proof.Proof.Gen.ReferenceIdeal
import proofs.«151701_j52707838657223_2_alg».proof.Proof.RefRun
import proofs.«151701_j52707838657223_2_alg».proof.Proof.RefRead
import proofs.«151701_j52707838657223_2_alg».proof.Proof.Gen.Pre_finite_inputs
import proofs.«151701_j52707838657223_2_alg».proof.Proof.Spec
import proofs.«151701_j52707838657223_2_alg».proof.Proof.KernelRun
import proofs.«151701_j52707838657223_2_alg».proof.Proof.Boundary
import proofs.«151701_j52707838657223_2_alg».proof.Proof.RefValue
import proofs.«151701_j52707838657223_2_alg».proof.Proof.Finite
import Idealize.ShloMosaic.Adequacy
import Idealize.ShloMosaic.Init

noncomputable section

namespace Cert.Proof

open Idealize.ShloMosaic Idealize.ShloMosaic.ValueIdx Idealize.SL.Sem Cert.TernaryLinear

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the same array in their result buffers: the kernel program with the "scale last" form of
    every entry, the reference with the "scale first" form, equal because the weights are finite. -/
theorem algebraic : Cert.algebraic_KernelIdeal_ReferenceIdeal := by
  intro m ρ m' ρ' hpre hagree
  refine ⟨fun c => Cert.KernelIdeal.Boundary.resultArray (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Boundary.result_eq m ρ c), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.ReadP.val_main_v18_eq _ _ _).trans ?_
    rw [(hagree c).1, (hagree c).2.1, (hagree c).2.2]
    funext i
    obtain ⟨p, q, o, rfl⟩ : ∃ (p : Fin 4) (q : Fin 4096) (o : Fin 2048), i = ix3 p q o := ⟨i 0, i 1, i 2, eq_ix3 i⟩
    rw [Cert.ReferenceIdeal.Entry.result_entry]
    exact (scaledAfter_eq_scaledBefore _ _ _ (Cert.Pre_finite_inputs.Finite.weight_finite _ _ _ (hpre c)) p q o).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
